-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : FVec F S4096x4096 .f32) (main_arg2 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x2048x4096 : Shape := ⟨3, ![2, 2048, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1x512 : Shape := ⟨2, ![1, 512]⟩
abbrev S512x512 : Shape := ⟨2, ![512, 512]⟩

abbrev nBuf : Space → Nat
  | .hbm => 7
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S2x2048x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x2048x4096_S4096x4096 : S2x2048x4096.ShapeCasts S4096x4096
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S4096x4096_S2x2048x4096 : S4096x4096.ShapeCasts S2x2048x4096
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S2x2048x4096, .f32⟩
  | .hbm, ⟨5, _⟩ => ⟨S1x1x4096, .f32⟩
  | .hbm, ⟨6, _⟩ => ⟨S2x2048x4096, .f32⟩
  | .hbm, ⟨7, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.BinPieces.lean ====
/-
  What each control case of the body leaves behind, as values of the blocks it was given.

  The body has three cases, by the position kk of the grid point along the contraction axis:
    first (kk = 0)   the accumulator is reset to zero and then receives the first partial product;
    middle (kk = 1,2) the accumulator carried from the point before receives one more partial product;
    last (kk = 3)    the same, and the output block is stored: the accumulator plus the bias row.
  Each store covers its whole 512 × 512 buffer, so what a buffer holds afterwards is the last store's value,
  and a load of the accumulator after a store reads that store's value back.
-/
import proofs.«143624_j61529701482733_1_alg».proof.Proof.Gen.KernelIdeal.Frame
import Idealize.ShloMosaic.Lib.Pipeline.Value
import Idealize.ShloMosaic.Lib.Tactic

noncomputable section

namespace Cert.BinLinear

open Idealize.ShloMosaic Idealize.ShloMosaic.TcCoe Idealize.ShloMosaic.Tactic Idealize.SL.Sem Cert.KernelIdeal Cert.KernelIdeal.Gen

variable {F : FTy → Type} [FloatOps F]

theorem zeroOff : (![0, 0] : Fin 2 → Nat) = fun _ => 0 := funext fun a => by fin_cases a <;> rfl

/-- First case: the accumulator ends at the first partial product added to the reset value. -/
theorem scratch_first (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 x1 : Vec F S512x1024 .f32) (x2 : Vec F S1x512 .f32) :
    sout0_A_0 c i arg3 harg3 arg4 harg4 arg5 harg5 arg6 harg6 arg7 harg7 hc0 hc1 x0 x1 x2 = k0_pay2 x0 x1 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x512) zeroOff, View.readCov_unit_zero (S := S512x512) _ zeroOff]
  simp only [View.readAt_eq_ld, harg3.read_unread, harg4.read_unread, View.ld_unit_zero (S := S512x1024) zeroOff]

/-- Middle case: the carried accumulator receives one more partial product. -/
theorem scratch_middle (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 x1 : Vec F S512x1024 .f32) (x2 : Vec F S1x512 .f32) (xs0 : Vec F S512x512 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S512x512) zeroOff]
  simp only [View.readAt_eq_ld, harg3.read_unread, harg4.read_unread, harg7.read_unread,
    View.ld_unit_zero (S := S512x1024) zeroOff, View.ld_unit_zero (S := S512x512) zeroOff]

/-- Last case: the accumulator likewise, -/
theorem scratch_last (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 : Vec F S512x1024 .f32) (x2 : Vec F S1x512 .f32) (xs0 : Vec F S512x512 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S512x512) zeroOff]
  simp only [View.readAt_eq_ld, harg3.read_unread, harg4.read_unread, harg7.read_unread,
    View.ld_unit_zero (S := S512x1024) zeroOff, View.ld_unit_zero (S := S512x512) zeroOff]

/-- and the output block: the finished accumulator plus the bias row. -/
theorem output_last (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 : Vec F S512x1024 .f32) (x2 : Vec F S1x512 .f32) (xs0 : Vec F S512x512 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S512x512) zeroOff, View.readCov_unit_zero (S := S512x512) _ zeroOff]
  simp only [View.readAt_eq_ld, harg3.read_unread, harg4.read_unread, harg5.read_unread, harg7.read_unread,
    View.ld_unit_zero (S := S512x1024) zeroOff, View.ld_unit_zero (S := S512x512) zeroOff,
    View.ld_unit_zero (S := S1x512) zeroOff]

end Cert.BinLinear

end
-- ==== Proof.BinPayload.lean ====
/-
  The body's three stored values, read at one entry (p, q) of the 512 × 512 block, at the ideal instance:
    the reset value            0,
    the accumulation step      acc[p, q] + ∑ k < 1024, x[p, k] · sign(w[q, k]),
    the output value           acc[p, q] + bias[0, q].
  The roundings to bf16 on the way into the product are the identity on extended reals; the select chain that
  builds ±1 from the weight's sign and keeps a zero weight as it is, is `Ideal.sign` at every extended real,
  both infinities included; the product into a zero accumulator is the plain sum over the contracted axis.
-/
import proofs.«143624_j61529701482733_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.BinLinear

open Idealize.ShloMosaic Idealize.ShloMosaic.ValueIdx Cert.KernelIdeal Cert.KernelIdeal.Gen

/-- The contraction record of the block product: both operands contracted along their second axis. -/
abbrev blockDot := dot_S512x1024_S512x1024_S512x512_1_1_0_0_n_n

/-- The reset stores zero everywhere. -/
theorem pay1_apply (y : S512x512.Idx) : k0_pay1 (F := Ideal) y = 0 := by
  unfold k0_pay1
  simp only [shapeCast_self]
  exact Ideal.ofBits_zero_f32

theorem lhs_row (j : S512x512.Idx) (e : blockDot.contr.Idx) : (blockDot.lhsIdx j e 0).val = (j 0).val := by
  unfold DotDims.lhsIdx
  rw [dif_neg (show ¬(0 : Fin S512x1024.rank) ∈ blockDot.lhsBatch by decide),
    dif_pos (show (0 : Fin S512x1024.rank) ∈ blockDot.lhsNonContracting by decide)]
  rfl

theorem lhs_contr (j : S512x512.Idx) (e : blockDot.contr.Idx) : (blockDot.lhsIdx j e 1).val = (e ⟨0, by decide⟩).val :=
  blockDot.lhsIdx_val_of_single rfl j e

theorem rhs_row (j : S512x512.Idx) (e : blockDot.contr.Idx) : (blockDot.rhsIdx j e 0).val = (j 1).val := by
  unfold DotDims.rhsIdx
  rw [dif_neg (show ¬(0 : Fin S512x1024.rank) ∈ blockDot.rhsBatch by decide),
    dif_pos (show (0 : Fin S512x1024.rank) ∈ blockDot.rhsNonContracting by decide)]
  rfl

theorem rhs_contr (j : S512x512.Idx) (e : blockDot.contr.Idx) : (blockDot.rhsIdx j e 1).val = (e ⟨0, by decide⟩).val :=
  blockDot.rhsIdx_val_of_single rfl j e

/-- The block product into a zero accumulator, at (p, q): row p of the left operand against row q of the right. -/
theorem blockDot_apply (l r : FVec Ideal S512x1024 .bf16) (p q : Fin 512) :
    FloatOps.matmul blockDot none l r (constant S512x512 .f32 0x00000000#32) (ix2 p q)
      = ∑ k : Fin 1024, l (ix2 p k) * r (ix2 q k) := by
  rw [Ideal.matmul_constant_zero_apply, ← Equiv.sum_comp (contrEquiv1 blockDot 1024 rfl rfl).symm]
  refine Finset.sum_congr rfl fun k _ => ?_
  have hk := contrEquiv1_symm_val blockDot 1024 rfl rfl k
  have el : blockDot.lhsIdx (ix2 p q) ((contrEquiv1 blockDot 1024 rfl rfl).symm k) = ix2 p k :=
    funext fun a => Fin.ext (by
      match a with
      | ⟨0, _⟩ => exact lhs_row _ _
      | ⟨1, _⟩ => exact (lhs_contr _ _).trans hk)
  have er : blockDot.rhsIdx (ix2 p q) ((contrEquiv1 blockDot 1024 rfl rfl).symm k) = ix2 q k :=
    funext fun a => Fin.ext (by
      match a with
      | ⟨0, _⟩ => exact rhs_row _ _
      | ⟨1, _⟩ => exact (rhs_contr _ _).trans hk)
  rw [el, er]

/-- The accumulation step at (p, q). -/
theorem pay2_apply (x w : Vec Ideal S512x1024 .f32) (acc : Vec Ideal S512x512 .f32) (p q : Fin 512) :
    k0_pay2 (F := Ideal) x w acc (ix2 p q)
      = acc (ix2 p q) + ∑ k : Fin 1024, x (ix2 p k) * Ideal.sign (w (ix2 q k)) := by
  unfold k0_pay2
  simp only [shapeCast_self]
  refine (addf_apply _ _ _).trans ?_
  refine congrArg (acc (ix2 p q) + ·) ?_
  refine (blockDot_apply _ _ p q).trans ?_
  refine Finset.sum_congr rfl fun k _ => ?_
  exact congrArg (x (ix2 p k) * ·) (Ideal.jnp_sign_eq_sign_f32 (w (ix2 q k)))

/-- The output value at (p, q): the bias row broadcast down the block's rows. -/
theorem pay3_apply (acc : Vec Ideal S512x512 .f32) (b : Vec Ideal S1x512 .f32) (p q : Fin 512) :
    k0_pay3 (F := Ideal) acc b (ix2 p q) = acc (ix2 p q) + b (ix2 (0 : Fin 1) q) := by
  unfold k0_pay3
  simp only [shapeCast_self]
  refine (addf_apply _ _ _).trans ?_
  refine congrArg (acc (ix2 p q) + ·) ?_
  exact broadcastTo_apply _ broadcasts_S1x512_S512x512 (ix2 p q) (ix2 (0 : Fin 1) q) (fun a => by
    match a with
    | ⟨0, _⟩ => show (0 : ℕ) = if (1 : ℕ) = 1 then 0 else _; rw [if_pos rfl]
    | ⟨1, _⟩ => show q.val = if (512 : ℕ) = 1 then 0 else q.val; rw [if_neg (by decide)])

end Cert.BinLinear

end
-- ==== Proof.BinStep.lean ====
/-
  One grid point's effect at one entry (p, q) of the block, at the ideal instance, for ANY blocks handed to the
  body: the accumulator gains the partial product of the point's activation and weight blocks,
      acc'[p, q] = acc[p, q] + ∑ k < 1024, x[p, k] · sign(w[q, k])      (acc = 0 at a first point),
  and at a last point the output block is acc'[p, q] + bias[0, q].
-/
import proofs.«143624_j61529701482733_1_alg».proof.Proof.BinPieces
import proofs.«143624_j61529701482733_1_alg».proof.Proof.BinPayload

noncomputable section

namespace Cert.BinLinear

open Idealize.ShloMosaic Idealize.ShloMosaic.TcCoe Idealize.ShloMosaic.ValueIdx Idealize.SL.Sem Cert.KernelIdeal Cert.KernelIdeal.Gen

theorem first_at (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 x1 : Vec Ideal S512x1024 .f32) (x2 : Vec Ideal S1x512 .f32) (p q : Fin 512) :
    sout0_A_0 c i arg3 harg3 arg4 harg4 arg5 harg5 arg6 harg6 arg7 harg7 hc0 hc1 x0 x1 x2 (ix2 p q)
      = 0 + ∑ k : Fin 1024, x0 (ix2 p k) * Ideal.sign (x1 (ix2 q k)) := by
  rw [scratch_first, pay2_apply, pay1_apply]

theorem middle_at (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 x1 : Vec Ideal S512x1024 .f32) (x2 : Vec Ideal S1x512 .f32) (xs0 : Vec Ideal S512x512 .f32) (p q : Fin 512) :
    sout0_B_0 c i arg3 harg3 arg4 harg4 arg5 harg5 arg6 harg6 arg7 harg7 hc0 hc1 x0 x1 x2 xs0 (ix2 p q)
      = xs0 (ix2 p q) + ∑ k : Fin 1024, x0 (ix2 p k) * Ideal.sign (x1 (ix2 q k)) := by
  rw [scratch_middle, pay2_apply]

theorem last_at (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 : Vec Ideal S512x1024 .f32) (x2 : Vec Ideal S1x512 .f32) (xs0 : Vec Ideal S512x512 .f32) (p q : Fin 512) :
    sout0_C_0 c i arg3 harg3 arg4 harg4 arg5 harg5 arg6 harg6 arg7 harg7 hc0 hc1 x0 x1 x2 xs0 (ix2 p q)
      = xs0 (ix2 p q) + ∑ k : Fin 1024, x0 (ix2 p k) * Ideal.sign (x1 (ix2 q k)) := by
  rw [scratch_last, pay2_apply]

theorem output_at (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 : Vec Ideal S512x1024 .f32) (x2 : Vec Ideal S1x512 .f32) (xs0 : Vec Ideal S512x512 .f32) (p q : Fin 512) :
    out0_C_3 c i arg3 harg3 arg4 harg4 arg5 harg5 arg6 harg6 arg7 harg7 hc0 hc1 x0 x1 x2 xs0 (ix2 p q)
      = (xs0 (ix2 p q) + ∑ k : Fin 1024, x0 (ix2 p k) * Ideal.sign (x1 (ix2 q k))) + x2 (ix2 (0 : Fin 1) q) := by
  rw [output_last, pay3_apply, pay2_apply]

end Cert.BinLinear

end
-- ==== Proof.BinSpec.lean ====
/-
  The function both programs compute, on the extended reals, and the algebra of its K-blocked evaluation.

  With x viewed as a 4096 × 4096 matrix X (rows are the flattened (batch, position) pairs), W the weight
  matrix and b the bias,
      out[r, c] = (∑ k < 4096, X[r, k] · sign(W[c, k])) + b[c].
  The kernel evaluates the sum in four consecutive stretches of 1024 terms, carrying the running total
  between grid points; the running total after n terms is `partialDot … n`, a sum over `Finset.range n`,
  so that one more stretch is `Finset.sum_range_add` and nothing about the order of addition is used
  beyond associativity (no finiteness: addition of extended reals is a commutative monoid).
-/
import Idealize.ShloMosaic.PureOps.Ideal
import Idealize.ShloMosaic.PureOps.Ideal.Laws
import Idealize.ShloMosaic.Lib.ValueIdx

noncomputable section

namespace Cert.BinLinear

open Idealize.ShloMosaic Idealize.ShloMosaic.ValueIdx

/-- The shape of the flattened activations, of the weights and of the flattened result. -/
abbrev SQ : Shape := ⟨2, ![4096, 4096]⟩
/-- The bias as a one-row matrix. -/
abbrev SRow : Shape := ⟨2, ![1, 4096]⟩
/-- The activations and the result as the programs take and return them. -/
abbrev SAct : Shape := ⟨3, ![2, 2048, 4096]⟩
/-- The bias as the programs take it. -/
abbrev SBias : Shape := ⟨1, ![4096]⟩

/-- Entry (r, k) of a 4096 × 4096 matrix at natural-number coordinates; zero outside the matrix (never
    consulted there: every sum below stays inside). -/
def entry (A : SQ.Idx → EReal) (r k : ℕ) : EReal :=
  if h : r < 4096 ∧ k < 4096 then A (ix2 ⟨r, h.1⟩ ⟨k, h.2⟩) else 0

theorem entry_eq (A : SQ.Idx → EReal) (r k : Fin 4096) : entry A r.val k.val = A (ix2 r k) := by
  unfold entry; rw [dif_pos ⟨r.isLt, k.isLt⟩]

/-- The k-th term of the dot product of row r of X with the signs of row c of W. -/
def term (X W : SQ.Idx → EReal) (r c k : ℕ) : EReal := entry X r k * Ideal.sign (entry W c k)

/-- The running total after the first n terms. -/
def partialDot (X W : SQ.Idx → EReal) (r c n : ℕ) : EReal := ∑ k ∈ Finset.range n, term X W r c k

theorem partialDot_zero (X W : SQ.Idx → EReal) (r c : ℕ) : partialDot X W r c 0 = 0 := Finset.sum_range_zero _

/-- One more stretch of b terms. -/
theorem partialDot_add (X W : SQ.Idx → EReal) (r c n b : ℕ) :
    partialDot X W r c (n + b) = partialDot X W r c n + ∑ k : Fin b, term X W r c (n + k.val) := by
  unfold partialDot
  rw [Finset.sum_range_add, Fin.sum_univ_eq_sum_range (fun k => term X W r c (n + k)) b]

/-- All 4096 terms: the whole dot product. -/
theorem partialDot_full (X W : SQ.Idx → EReal) (r c : Fin 4096) :
    partialDot X W r.val c.val 4096 = ∑ k : Fin 4096, X (ix2 r k) * Ideal.sign (W (ix2 c k)) := by
  unfold partialDot
  rw [← Fin.sum_univ_eq_sum_range (fun k => term X W r.val c.val k) 4096]
  refine Finset.sum_congr rfl fun k _ => ?_
  unfold term
  rw [entry_eq, entry_eq]

/-- The flattened result: row r, column c. -/
def flat (X W : SQ.Idx → EReal) (B : SRow.Idx → EReal) : SQ.Idx → EReal :=
  fun j => (∑ k : Fin 4096, X (ix2 (j 0) k) * Ideal.sign (W (ix2 (j 1) k))) + B (ix2 (0 : Fin 1) (j 1))

/-- THE SPECIFICATION: the result at (batch, position, feature), from the arguments as given. -/
def spec (x : SAct.Idx → EReal) (w : SQ.Idx → EReal) (b : SBias.Idx → EReal) : SAct.Idx → EReal :=
  fun i => (∑ k : Fin 4096, x (ix3 (i 0) (i 1) k) * Ideal.sign (w (ix2 (i 2) k))) + b (ix1 (i 2))

end Cert.BinLinear

end
-- ==== Proof.BinBlocks.lean ====
/-
  Where the grid points sit and what their input blocks hold.

  The grid is 8 × 8 × 4 in row-major order: point n has block row n / 32 of the activations, block row
  n / 4 % 8 of the weights, and is the (n % 4)-th stretch of the contraction. Its activation block is rows
  (n / 32)·512 … of X, columns (n % 4)·1024 …; its weight block is rows (n / 4 % 8)·512 … of W, the same
  columns; its bias block is columns (n / 4 % 8)·512 … of the one-row bias; its output block is rows
  (n / 32)·512 …, columns (n / 4 % 8)·512 … of the flattened result.
-/
import proofs.«143624_j61529701482733_1_alg».proof.Proof.Gen.KernelIdeal.Frame
import proofs.«143624_j61529701482733_1_alg».proof.Proof.BinSpec

noncomputable section

namespace Cert.BinLinear

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The flattened activations, the weights and the one-row bias as the region finds them. -/
def actX (c : Dev nD) : SQ.Idx → EReal := V m c main_v0
def wgtW (c : Dev nD) : SQ.Idx → EReal := V m c main_arg1
def biasRow (c : Dev nD) : SRow.Idx → EReal := V m c main_v1

/-- The three input blocks of point n, at their literal block shapes. -/
def xblk (c : Dev nD) (n : ℕ) (h : n < cfg0.N) : Vec Ideal S512x1024 .f32 := iblk m c 0 ⟨n, h⟩
def wblk (c : Dev nD) (n : ℕ) (h : n < cfg0.N) : Vec Ideal S512x1024 .f32 := iblk m c 1 ⟨n, h⟩
def bblk (c : Dev nD) (n : ℕ) (h : n < cfg0.N) : Vec Ideal S1x512 .f32 := iblk m c 2 ⟨n, h⟩

/-- The four index maps at every point of the grid, decided once over its 256 points. -/
theorem index_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

/-- The activation block of point n at (p, k). -/
theorem xblock_apply (c : Dev nD) (n : ℕ) (h : n < cfg0.N) (p : Fin 512) (k : Fin 1024) :
    xblk m c n h (ix2 p k) = entry (actX m c) (n / 32 * 512 + p.val) (n % 4 * 1024 + k.val) := by
  have hN : n < 256 := lt_of_lt_of_eq h (show cfg0.N = 256 from N_0)
  have e0 : win0_0.index ⟨n, h⟩ (0 : Fin 2) = n / 32 := (index_facts ⟨n, h⟩).1
  have e1 : win0_0.index ⟨n, h⟩ (1 : Fin 2) = n % 4 := (index_facts ⟨n, h⟩).2.1
  unfold entry
  rw [dif_pos ⟨by omega, by omega⟩]
  show V m c main_v0 (((cfg0.win 0).blk ⟨n, h⟩).view.emb (ix2 p k)) = V m c main_v0 _
  refine congrArg (V m c main_v0) (funext fun a => Fin.ext ?_)
  match a with
  | ⟨0, _⟩ => show win0_0.index ⟨n, h⟩ (0 : Fin 2) * 512 + 1 * p.val = n / 32 * 512 + p.val; rw [e0]; omega
  | ⟨1, _⟩ => show win0_0.index ⟨n, h⟩ (1 : Fin 2) * 1024 + 1 * k.val = n % 4 * 1024 + k.val; rw [e1]; omega

/-- The weight block of point n at (q, k). -/
theorem wblock_apply (c : Dev nD) (n : ℕ) (h : n < cfg0.N) (q : Fin 512) (k : Fin 1024) :
    wblk m c n h (ix2 q k) = entry (wgtW m c) (n / 4 % 8 * 512 + q.val) (n % 4 * 1024 + k.val) := by
  have hN : n < 256 := lt_of_lt_of_eq h (show cfg0.N = 256 from N_0)
  have e0 : win0_1.index ⟨n, h⟩ (0 : Fin 2) = n / 4 % 8 := (index_facts ⟨n, h⟩).2.2.1
  have e1 : win0_1.index ⟨n, h⟩ (1 : Fin 2) = n % 4 := (index_facts ⟨n, h⟩).2.2.2.1
  unfold entry
  rw [dif_pos ⟨by omega, by omega⟩]
  show V m c main_arg1 (((cfg0.win 1).blk ⟨n, h⟩).view.emb (ix2 q k)) = V m c main_arg1 _
  refine congrArg (V m c main_arg1) (funext fun a => Fin.ext ?_)
  match a with
  | ⟨0, _⟩ => show win0_1.index ⟨n, h⟩ (0 : Fin 2) * 512 + 1 * q.val = n / 4 % 8 * 512 + q.val; rw [e0]; omega
  | ⟨1, _⟩ => show win0_1.index ⟨n, h⟩ (1 : Fin 2) * 1024 + 1 * k.val = n % 4 * 1024 + k.val; rw [e1]; omega

/-- The bias block of point n at (0, q). -/
theorem bblock_apply (c : Dev nD) (n : ℕ) (h : n < cfg0.N) (q : Fin 512) :
    bblk m c n h (ix2 (0 : Fin 1) q)
      = biasRow m c (ix2 (0 : Fin 1) ⟨n / 4 % 8 * 512 + q.val, by have := q.isLt; omega⟩) := by
  have e0 : win0_2.index ⟨n, h⟩ (0 : Fin 2) = 0 := (index_facts ⟨n, h⟩).2.2.2.2.1
  have e1 : win0_2.index ⟨n, h⟩ (1 : Fin 2) = n / 4 % 8 := (index_facts ⟨n, h⟩).2.2.2.2.2.1
  show V m c main_v1 (((cfg0.win 2).blk ⟨n, h⟩).view.emb (ix2 (0 : Fin 1) q)) = V m c main_v1 _
  refine congrArg (V m c main_v1) (funext fun a => Fin.ext ?_)
  match a with
  | ⟨0, _⟩ => show win0_2.index ⟨n, h⟩ (0 : Fin 2) * 1 + 1 * 0 = 0; rw [e0]
  | ⟨1, _⟩ => show win0_2.index ⟨n, h⟩ (1 : Fin 2) * 512 + 1 * q.val = n / 4 % 8 * 512 + q.val; rw [e1]; omega

end Cert.BinLinear

end
-- ==== Proof.BinInvariant.lean ====
/-
  THE ACCUMULATION over the grid. After grid point n the carried accumulator holds, at (p, q), the running total
  of the dot product of row (n / 32)·512 + p of X with the signs of row (n / 4 % 8)·512 + q of W over its first
  (n % 4 + 1)·1024 terms: a first point (n % 4 = 0) starts from zero and adds the first stretch; every other point
  has the same rows as the point before it and adds the next stretch. By induction on the point.
  At a last point (n % 4 = 3) all 4096 terms are in, and the output block is the whole dot product plus the bias.
-/
import proofs.«143624_j61529701482733_1_alg».proof.Proof.BinStep
import proofs.«143624_j61529701482733_1_alg».proof.Proof.BinBlocks

noncomputable section

namespace Cert.BinLinear

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The partial product of point n's blocks is the (n % 4)-th stretch of 1024 terms. -/
theorem block_sum (c : Dev nD) (n : ℕ) (h : n < cfg0.N) (p q : Fin 512) :
    ∑ k : Fin 1024, xblk m c n h (ix2 p k) * Ideal.sign (wblk m c n h (ix2 q k))
      = ∑ k : Fin 1024, term (actX m c) (wgtW m c) (n / 32 * 512 + p.val) (n / 4 % 8 * 512 + q.val) (n % 4 * 1024 + k.val) :=
  Finset.sum_congr rfl fun k _ => by rw [xblock_apply, wblock_apply]; rfl

/-- A first point: zero plus the first stretch. -/
theorem scratch_first_point (c : Dev nD) (n : ℕ) (h : n < cfg0.N) (h0 : n % 4 = 0) (p q : Fin 512) :
    (outsAt0 m c n h).2 (ix2 p q)
      = partialDot (actX m c) (wgtW m c) (n / 32 * 512 + p.val) (n / 4 % 8 * 512 + q.val) ((n % 4 + 1) * 1024) := by
  rw [outsAt0_A m c ⟨n, h⟩ h0 (by show ¬n % 4 = 3; omega)]
  dsimp only
  refine (first_at c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) _ _ (xblk m c n h) (wblk m c n h) (bblk m c n h) p q).trans ?_
  rw [block_sum m c n h p q, show (n % 4 + 1) * 1024 = n % 4 * 1024 + 1024 by omega, partialDot_add, h0,
    Nat.zero_mul, partialDot_zero]

/-- Any other point: what the point before left, plus the next stretch. -/
theorem scratch_step (c : Dev nD) (n : ℕ) (h : n + 1 < cfg0.N) (h0 : ¬(n + 1) % 4 = 0) (p q : Fin 512) :
    (outsAt0 m c (n + 1) h).2 (ix2 p q)
      = (outsAt0 m c n (Nat.lt_of_succ_lt h)).2 (ix2 p q)
        + ∑ k : Fin 1024, xblk m c (n + 1) h (ix2 p k) * Ideal.sign (wblk m c (n + 1) h (ix2 q k)) := by
  by_cases h1 : (n + 1) % 4 = 3
  · rw [outsAt0_C m c ⟨n + 1, h⟩ h0 h1]
    dsimp only
    exact last_at c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (xblk m c (n + 1) h) (wblk m c (n + 1) h) (bblk m c (n + 1) h) (outsAt0 m c n (Nat.lt_of_succ_lt h)).2 p q
  · rw [outsAt0_B m c ⟨n + 1, h⟩ h0 h1]
    dsimp only
    exact middle_at c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (xblk m c (n + 1) h) (wblk m c (n + 1) h) (bblk m c (n + 1) h) (outsAt0 m c n (Nat.lt_of_succ_lt h)).2 p q

theorem scratch_next_point (c : Dev nD) (n : ℕ) (h : n + 1 < cfg0.N) (h0 : ¬(n + 1) % 4 = 0)
    (ih : ∀ (h' : n < cfg0.N) (p q : Fin 512), (outsAt0 m c n h').2 (ix2 p q)
      = partialDot (actX m c) (wgtW m c) (n / 32 * 512 + p.val) (n / 4 % 8 * 512 + q.val) ((n % 4 + 1) * 1024))
    (p q : Fin 512) :
    (outsAt0 m c (n + 1) h).2 (ix2 p q)
      = partialDot (actX m c) (wgtW m c) ((n + 1) / 32 * 512 + p.val) ((n + 1) / 4 % 8 * 512 + q.val) (((n + 1) % 4 + 1) * 1024) := by
  rw [scratch_step m c n h h0 p q, ih (Nat.lt_of_succ_lt h) p q, block_sum m c (n + 1) h p q,
    show ((n + 1) % 4 + 1) * 1024 = (n + 1) % 4 * 1024 + 1024 by omega, partialDot_add,
    show n / 32 * 512 + p.val = (n + 1) / 32 * 512 + p.val by omega,
    show n / 4 % 8 * 512 + q.val = (n + 1) / 4 % 8 * 512 + q.val by omega,
    show (n % 4 + 1) * 1024 = (n + 1) % 4 * 1024 by omega]

/-- THE INVARIANT: the accumulator after point n. -/
theorem scratch_after (c : Dev nD) : ∀ (n : ℕ) (h : n < cfg0.N) (p q : Fin 512),
    (outsAt0 m c n h).2 (ix2 p q)
      = partialDot (actX m c) (wgtW m c) (n / 32 * 512 + p.val) (n / 4 % 8 * 512 + q.val) ((n % 4 + 1) * 1024) := by
  intro n
  induction n with
  | zero => exact fun h p q => scratch_first_point m c 0 h rfl p q
  | succ n ih =>
    intro h p q
    by_cases h0 : (n + 1) % 4 = 0
    · exact scratch_first_point m c (n + 1) h h0 p q
    · exact scratch_next_point m c n h h0 ih p q

/-- A last point stores the accumulator it has just completed, plus the bias row. -/
theorem last_point_split (c : Dev nD) (n : ℕ) (h : n < cfg0.N) (h3 : n % 4 = 3) (p q : Fin 512) :
    (outsAt0 m c n h).1 (ix2 p q) = (outsAt0 m c n h).2 (ix2 p q) + bblk m c n h (ix2 (0 : Fin 1) q) := by
  rw [outsAt0_C m c ⟨n, h⟩ (by show ¬n % 4 = 0; omega) h3]
  dsimp only
  exact (output_at c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) _ _ (xblk m c n h) (wblk m c n h) (bblk m c n h) (outsAt0 m c (n - 1) (Nat.lt_of_le_of_lt (Nat.sub_le _ _) h)).2 p q).trans
    (congrArg (· + bblk m c n h (ix2 (0 : Fin 1) q))
      (last_at c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) _ _ (xblk m c n h) (wblk m c n h) (bblk m c n h) (outsAt0 m c (n - 1) (Nat.lt_of_le_of_lt (Nat.sub_le _ _) h)).2 p q).symm)

/-- A last point's output block: the whole dot product plus the bias, at the block's place in the flattened result. -/
theorem out_block (c : Dev nD) (n : ℕ) (h : n < cfg0.N) (h3 : n % 4 = 3) (p q : Fin 512)
    (hr : n / 32 * 512 + p.val < 4096) (hc : n / 4 % 8 * 512 + q.val < 4096) :
    (outsAt0 m c n h).1 (ix2 p q)
      = flat (actX m c) (wgtW m c) (biasRow m c) (ix2 ⟨n / 32 * 512 + p.val, hr⟩ ⟨n / 4 % 8 * 512 + q.val, hc⟩) := by
  rw [last_point_split m c n h h3 p q, scratch_after m c n h p q, bblock_apply m c n h q,
    show (n % 4 + 1) * 1024 = 4096 by omega]
  exact congrArg (· + _) (partialDot_full (actX m c) (wgtW m c) ⟨_, hr⟩ ⟨_, hc⟩)

end Cert.BinLinear

end
-- ==== Proof.BinReshape.lean ====
/-
  The reshapes around the flattened computation. Flattening (batch, position) to one row index r = batch·2048 +
  position keeps row-major positions, so entry (r, k) of the flattened activations is entry (batch, position, k)
  of the activations, entry (0, c) of the one-row bias is entry c of the bias, and entry (batch, position, c) of
  the result is entry (r, c) of the flattened result: the flattened result, reshaped, is the specification.
-/
import proofs.«143624_j61529701482733_1_alg».proof.Proof.BinSpec
import Idealize.ShloMosaic.Lib.Pipeline.Value

noncomputable section

namespace Cert.BinLinear

open Idealize.ShloMosaic Idealize.ShloMosaic.ValueIdx

/-- The flattened activations at (batch·2048 + position, k). -/
theorem flatten_act (x : SAct.Idx → EReal) (h : SAct.ShapeCasts SQ) (b : Fin 2) (s : Fin 2048) (k : Fin 4096)
    (hr : b.val * 2048 + s.val < 4096) :
    shapeCast SQ x h (ix2 ⟨b.val * 2048 + s.val, hr⟩ k) = x (ix3 b s k) :=
  shapeCast_apply x h _ (ix3 b s k) (by
    rw [Shape.rowMajor_val_three, Shape.rowMajor_val_two]
    show (b.val * 2048 + s.val) * 4096 + k.val = (b.val * 2048 + s.val) * 4096 + k.val
    rfl)

/-- The one-row bias at (0, c). -/
theorem row_bias (v : SBias.Idx → EReal) (h : SBias.ShapeCasts SRow) (c : Fin 4096) :
    shapeCast SRow v h (ix2 (0 : Fin 1) c) = v (ix1 c) :=
  shapeCast_apply v h _ (ix1 c) (by
    rw [Shape.rowMajor_val_one, Shape.rowMajor_val_two]
    show c.val = 0 * 4096 + c.val
    omega)

/-- The flattened result of the flattened arguments, reshaped back, is the specification. -/
theorem flat_reshape (x : SAct.Idx → EReal) (w : SQ.Idx → EReal) (v : SBias.Idx → EReal)
    (h0 : SAct.ShapeCasts SQ) (h1 : SBias.ShapeCasts SRow) (h2 : SQ.ShapeCasts SAct) :
    shapeCast SAct (flat (shapeCast SQ x h0) w (shapeCast SRow v h1)) h2 = spec x w v := by
  funext i
  obtain ⟨b, s, c, rfl⟩ : ∃ (b : Fin 2) (s : Fin 2048) (c : Fin 4096), i = ix3 b s c := ⟨i 0, i 1, i 2, eq_ix3 i⟩
  have hr : b.val * 2048 + s.val < 4096 := by have := b.isLt; have := s.isLt; omega
  refine (shapeCast_apply _ h2 (ix3 b s c) (ix2 ⟨b.val * 2048 + s.val, hr⟩ c) (by
    rw [Shape.rowMajor_val_three, Shape.rowMajor_val_two]
    show (b.val * 2048 + s.val) * 4096 + c.val = (b.val * 2048 + s.val) * 4096 + c.val
    rfl)).trans ?_
  show (∑ k : Fin 4096, shapeCast SQ x h0 (ix2 ⟨b.val * 2048 + s.val, hr⟩ k) * Ideal.sign (w (ix2 c k)))
      + shapeCast SRow v h1 (ix2 (0 : Fin 1) c)
    = (∑ k : Fin 4096, x (ix3 b s k) * Ideal.sign (w (ix2 c k))) + v (ix1 c)
  rw [row_bias]
  refine congrArg (· + v (ix1 c)) (Finset.sum_congr rfl fun k _ => ?_)
  rw [flatten_act]

end Cert.BinLinear

end
-- ==== Proof.BinArray.lean ====
/-
  From the blocks to the result. The output is written back at the last point of each stretch of four
  (n % 4 = 3), and what is written back is block (n / 32, n / 4 % 8) of the flattened result `flat X W B`; the
  64 blocks tile the 4096 × 4096 array (entry (r, c) is in the block of the point (r / 512)·32 + (c / 512)·4 + 3),
  so the array ends holding `flat X W B`. The region finds X and B as reshapes of the activations and the bias,
  W as given; the one operation after the region reshapes the array to (batch, position, feature): the
  specification.
-/
import proofs.«143624_j61529701482733_1_alg».proof.Proof.BinInvariant
import proofs.«143624_j61529701482733_1_alg».proof.Proof.BinReshape
import Idealize.ShloMosaic.Lib.Pipeline.Value
import Idealize.ShloMosaic.Lib.StableHlo.Run

noncomputable section

namespace Cert.BinLinear

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- A last point's output block at any entry j of the block. -/
theorem out_block_at (c : Dev nD) (n : ℕ) (h : n < cfg0.N) (h3 : n % 4 = 3) (j : S512x512.Idx)
    (hr : n / 32 * 512 + (j 0).val < 4096) (hc : n / 4 % 8 * 512 + (j 1).val < 4096) :
    (outsAt0 m c n h).1 j
      = flat (actX m c) (wgtW m c) (biasRow m c) (ix2 ⟨n / 32 * 512 + (j 0).val, hr⟩ ⟨n / 4 % 8 * 512 + (j 1).val, hc⟩) := by
  obtain ⟨p, q, rfl⟩ : ∃ (p q : Fin 512), j = ix2 p q := ⟨j 0, j 1, eq_ix2 j⟩
  exact out_block m c n h h3 p q hr hc

/-- WHAT A LAST POINT WRITES BACK is its block of the flattened result. -/
theorem flushed_eq (c : Dev nD) (t : Fin cfg0.N) (hf : (cfg0.win 3).flush t = true) :
    (dats m 0 c).flushed 3 t = ((cfg0.win 3).blk t).view.read (Elt Ideal) (flat (actX m c) (wgtW m c) (biasRow m c)) := by
  have h3 : t.val % 4 = 3 := (flush0_3 t).mp hf
  have hN : t.val < 256 := lt_of_lt_of_eq t.isLt (show cfg0.N = 256 from N_0)
  obtain ⟨n, h⟩ := t
  have e6 : win0_3.index ⟨n, h⟩ (0 : Fin 2) = n / 32 := (index_facts ⟨n, h⟩).2.2.2.2.2.2.1
  have e7 : win0_3.index ⟨n, h⟩ (1 : Fin 2) = n / 4 % 8 := (index_facts ⟨n, h⟩).2.2.2.2.2.2.2
  show (cfg0.win 3).cut (grid0.coords ⟨n, h⟩) ((dats m 0 c).after 3 ⟨n, h⟩) = _
  rw [after0_3]
  funext j
  have hj0 : (j 0).val < 512 := (j 0).isLt
  have hj1 : (j 1).val < 512 := (j 1).isLt
  show (outsAt0 m c n h).1 j = flat (actX m c) (wgtW m c) (biasRow m c) (((cfg0.win 3).blk ⟨n, h⟩).view.emb j)
  refine (out_block_at m c n h h3 j (by dsimp only at hN; omega) (by dsimp only at hN; omega)).trans ?_
  refine congrArg (flat (actX m c) (wgtW m c) (biasRow m c)) (funext fun a => Fin.ext ?_)
  match a with
  | ⟨0, _⟩ => show n / 32 * 512 + (j 0).val = win0_3.index ⟨n, h⟩ (0 : Fin 2) * 512 + 1 * (j 0).val; rw [e6]; omega
  | ⟨1, _⟩ => show n / 4 % 8 * 512 + (j 1).val = win0_3.index ⟨n, h⟩ (1 : Fin 2) * 512 + 1 * (j 1).val; rw [e7]; omega

/-- An entry of the array is in point t's block iff each coordinate is in the block's range on its axis. -/
theorem mem_blk (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v2).slice (win0_3.rect t)).set ↔ _
  rw [View.set_slice_whole, Rect.mem_set_unit]
  exact Iff.rfl

/-- THE COVER: every entry is in the block of a last point. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hn : (i 0).val / 512 * 32 + (i 1).val / 512 * 4 + 3 < cfg0.N := by rw [show cfg0.N = 256 from N_0]; omega
  have e6 : win0_3.index ⟨_, hn⟩ (0 : Fin 2) = ((i 0).val / 512 * 32 + (i 1).val / 512 * 4 + 3) / 32 := (index_facts ⟨_, hn⟩).2.2.2.2.2.2.1
  have e7 : win0_3.index ⟨_, hn⟩ (1 : Fin 2) = ((i 0).val / 512 * 32 + (i 1).val / 512 * 4 + 3) / 4 % 8 := (index_facts ⟨_, hn⟩).2.2.2.2.2.2.2
  refine ⟨⟨_, hn⟩, (flush0_3 ⟨_, hn⟩).mpr (by show ((i 0).val / 512 * 32 + (i 1).val / 512 * 4 + 3) % 4 = 3; omega), ?_⟩
  rw [mem_blk]
  intro a
  match a with
  | ⟨0, _⟩ =>
    show win0_3.index ⟨_, hn⟩ (0 : Fin 2) * 512 ≤ (i 0).val ∧ (i 0).val < win0_3.index ⟨_, hn⟩ (0 : Fin 2) * 512 + 512
    rw [e6]; omega
  | ⟨1, _⟩ =>
    show win0_3.index ⟨_, hn⟩ (1 : Fin 2) * 512 ≤ (i 1).val ∧ (i 1).val < win0_3.index ⟨_, hn⟩ (1 : Fin 2) * 512 + 512
    rw [e7]; omega

/-- THE ARRAY after the region: the flattened result of the arrays the region found. -/
theorem final_flat (c : Dev nD) : (dats m 0 c).arrAt 3 cfg0.N = flat (actX m c) (wgtW m c) (biasRow m c) :=
  (dats m 0 c).arrAt_eq_of_cover 3 (flat (actX m c) (wgtW m c) (biasRow m c)) (fun t hf => flushed_eq m c t hf) cover

/-- The region finds the activations flattened, -/
theorem actX_eq (c : Dev nD) :
    actX m c = shapeCast S4096x4096 (m ((c : Thread nD τ).loc main_arg0)) shapeCasts_S2x2048x4096_S4096x4096 := by
  unfold actX
  show StableHlo.after hostOps0 (fun b => m (c, b)) (Proc.devRef .tc main_v0) = _
  after_results
  rfl

/-- the bias as one row, -/
theorem biasRow_eq (c : Dev nD) :
    biasRow m c = shapeCast S1x4096 (m ((c : Thread nD τ).loc main_arg2)) shapeCasts_S4096_S1x4096 := by
  unfold biasRow
  show StableHlo.after hostOps0 (fun b => m (c, b)) (Proc.devRef .tc main_v1) = _
  after_results
  rfl

/-- and the weights as given. -/
theorem wgtW_eq (c : Dev nD) : wgtW m c = m ((c : Thread nD τ).loc main_arg1) := V_main_arg1 m c

/-- THE RESULT: the reshape after the region, of the array the region leaves, is the specification of the arguments. -/
theorem result_eq (c : Dev nD) :
    Pipeline.afterTail₀ cfgs (dats m) 0 (V0 m) [hostOps1] c main_v3
      = spec (m ((c : Thread nD τ).loc main_arg0)) (m ((c : Thread nD τ).loc main_arg1)) (m ((c : Thread nD τ).loc main_arg2)) := by
  have e : Pipeline.withArrays (cfgs 0).spec c (V0 m c) (fun w => (dats m 0 c).arrAt w (cfgs 0).N) (Proc.devRef .tc main_v2)
      = flat (actX m c) (wgtW m c) (biasRow m c) :=
    (Pipeline.withArrays_arr spec0 launch0.win.arr_inj c _ _ 3).trans (final_flat m c)
  unfold Pipeline.afterTail₀
  show StableHlo.after hostOps1 _ (Proc.devRef .tc main_v3) = _
  after_results
  rw [e, actX_eq, biasRow_eq, wgtW_eq]
  exact flat_reshape _ _ _ shapeCasts_S2x2048x4096_S4096x4096 shapeCasts_S4096_S1x4096 shapeCasts_S4096x4096_S2x2048x4096

/-- THE KERNEL'S RUN, read: every weakly fair execution terminates with the result at the specification of the
    arguments and the arguments unchanged (the argument clauses are read off the frame run's post as the frame
    itself reads them). -/
theorem kernel_run : θ_run defs (onTc (τ := τ) (main (F := Ideal))) ⟨m, fun _ => 0, ρ⟩ fun r => ∀ c : Dev nD,
      r.2.mem ((c.tc : Thread nD τ).loc main_v3) = spec (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.BinLinear

end
-- ==== Proof.BinReference.lean ====
/-
  The reference computes the specification: its sign is `Ideal.sign` entry by entry, its contraction of the
  activations' last axis with the weights' second axis is the sum over k of x[b, s, k] · sign(w[n, k]), and the
  bias, broadcast over batch and position, is added at the feature index.
-/
import proofs.«143624_j61529701482733_1_alg».proof.Proof.Gen.ReferenceIdeal.Read
import proofs.«143624_j61529701482733_1_alg».proof.Proof.BinSpec

noncomputable section

namespace Cert.BinLinear

open Idealize.ShloMosaic Idealize.ShloMosaic.ValueIdx Cert.ReferenceIdeal Cert.ReferenceIdeal.Read

theorem reference_eq_spec (x : SAct.Idx → EReal) (w : SQ.Idx → EReal) (v : SBias.Idx → EReal) :
    val_main_v4 (F := Ideal) x w v = spec x w v := by
  funext i
  have el : ∀ k : Fin 4096, lidx_main_v1 i k = ix3 (i 0) (i 1) k := fun k => funext fun a => by
    match a with
    | ⟨0, _⟩ => rfl
    | ⟨1, _⟩ => rfl
    | ⟨2, _⟩ => rfl
  have er : ∀ k : Fin 4096, ridx_main_v1 i k = ix2 (i 2) k := fun k => funext fun a => by
    match a with
    | ⟨0, _⟩ => rfl
    | ⟨1, _⟩ => rfl
  have eb : idx_main_v2 (idx_main_v3 i) = ix1 (i 2) := funext fun a => by
    match a with
    | ⟨0, _⟩ => rfl
  rw [val_main_v4_apply, val_main_v1_apply, val_main_v3_apply, val_main_v2_apply, eb]
  simp only [el, er, val_main_v0_apply, Ideal.hostUnary_sign_def]
  rfl

end Cert.BinLinear

end
-- ==== Proof.lean ====
/-
  A linear layer with sign-binarized weights: out[b, s, n] = (∑ k, x[b, s, k] · sign(w[n, k])) + bias[n].

  The kernel flattens (b, s) to one row index, tiles the 4096 × 4096 result in 512 × 512 blocks and, for each
  block, walks the contraction in four stretches of 1024, carrying the running total in an accumulator: zeroed at the
  first stretch, written out with the bias added at the last; the result is reshaped back. The reference takes the
  sign of the weights, contracts the activations' last axis with the weights' second axis in one product and adds the
  broadcast bias. On the extended reals the two are the same function of the arguments, `Cert.BinLinear.spec`:
    · the kernel builds ±1 from the weight's sign and keeps a zero weight as it is, which is the sign function at
      every extended real, the infinities included; the roundings to bf16 on the way into the product are the identity;
    · the four stretches add up to the whole sum by associativity alone, so nothing is asked of the inputs: the
      finiteness precondition is never opened;
    · the reshapes keep row-major positions.
  The kernel side is read off the frame run: each control case's stores as values (BinPieces, BinPayload, BinStep), the
  blocks' places in the arrays (BinBlocks), the accumulation by induction over the grid (BinInvariant), the blocks
  written back tiling the array and the reshape after the region (BinArray, BinReshape). The reference side is its run
  read one operation at a time (BinReference). The one rewrite of the idealization — the sign bit read as a comparison
  with zero — is its rule's statement.
-/
import proofs.«143624_j61529701482733_1_alg».proof.Defs
import proofs.«143624_j61529701482733_1_alg».proof.Proof.Gen.Kernel
import proofs.«143624_j61529701482733_1_alg».proof.Proof.Gen.Kernel.Skeleton
import proofs.«143624_j61529701482733_1_alg».proof.Proof.Gen.Kernel.Launch
import proofs.«143624_j61529701482733_1_alg».proof.Proof.Gen.Kernel.Points
import proofs.«143624_j61529701482733_1_alg».proof.Proof.Gen.Kernel.Frame
import proofs.«143624_j61529701482733_1_alg».proof.Proof.Gen.KernelIdeal
import proofs.«143624_j61529701482733_1_alg».proof.Proof.Gen.KernelIdeal.Skeleton
import proofs.«143624_j61529701482733_1_alg».proof.Proof.Gen.KernelIdeal.Launch
import proofs.«143624_j61529701482733_1_alg».proof.Proof.Gen.KernelIdeal.Points
import proofs.«143624_j61529701482733_1_alg».proof.Proof.Gen.KernelIdeal.Frame
import proofs.«143624_j61529701482733_1_alg».proof.Proof.Gen.ReferenceIdeal
import proofs.«143624_j61529701482733_1_alg».proof.Proof.Gen.Pre_finite_inputs
import proofs.«143624_j61529701482733_1_alg».proof.Proof.Gen.ReferenceIdeal.Run
import proofs.«143624_j61529701482733_1_alg».proof.Proof.Gen.ReferenceIdeal.Read
import Idealize.ShloMosaic.Adequacy
import Idealize.ShloMosaic.Init

import proofs.«143624_j61529701482733_1_alg».proof.Proof.BinArray
import proofs.«143624_j61529701482733_1_alg».proof.Proof.BinReference

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization's one rewrite: 1.0 carrying the weight's sign bit, read as −1 below zero and 1 otherwise. -/
theorem preserves : Cert.preserves_Kernel_KernelIdeal :=
  IdealRules.sign_bit.statement Cert.KernelIdeal.S512x1024 .f32

/-- Both idealized programs end with the result at the specification of arguments that agree. -/
theorem algebraic : Cert.algebraic_KernelIdeal_ReferenceIdeal := by
  intro m ρ m' ρ' _ hagree
  refine ⟨_, Cert.BinLinear.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.BinLinear.reference_eq_spec,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
